-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50000 : Shape := ⟨2, ![1024, 50000]⟩
abbrev S1024x200 : Shape := ⟨2, ![1024, 200]⟩
abbrev S1024 : Shape := ⟨1, ![1024]⟩
abbrev S50000 : Shape := ⟨1, ![50000]⟩
abbrev S2000x128 : Shape := ⟨2, ![2000, 128]⟩
abbrev S_ : Shape := ⟨0, ![]⟩

class Facts : Prop where
  bcast_S_S1024x50000 : S_.BroadcastsInDim S1024x50000 (![] : Fin 0 → Fin S1024x50000.rank)
  reducesTo_S1024x50000_S_d0_1 : S1024x50000.ReducesTo [0, 1] S_
  h_S_ : 0 < S_.numel
  bcast_S_S2000x128 : S_.BroadcastsInDim S2000x128 (![] : Fin 0 → Fin S2000x128.rank)
  reducesTo_S2000x128_S_d0_1 : S2000x128.ReducesTo [0, 1] S_
  reducesTo_S_S_d : S_.ReducesTo [] S_

variable [Facts]

def fn {F : FTy → Type} [FloatOps F] (main_arg0 : FVec F S1024x50000 .f32) (main_arg1 : IVec S1024x200 32) (main_arg2 : IVec S1024 32) (main_arg3 : IVec S50000 32) (main_arg4 : FVec F S2000x128 .f32) (main_arg5 : FVec F S_ .f32) : IVec S_ 1 :=
  let main_v0 : FVec F S1024x50000 .f32 := Host.absf main_arg0
  let main_cst : FVec F S_ .f32 := constant S_ .f32 0x7F800000#32
  let main_v1 : FVec F S1024x50000 .f32 := broadcastInDim S1024x50000 ![] bcast_S_S1024x50000 main_cst
  let main_v2 : IVec S1024x50000 1 := cmpf .olt main_v0 main_v1
  let main_c : IVec S_ 1 := constantI S_ 1 1#1
  let main_v3 : IVec S_ 1 := (fun x v => Host.reduce IntOp.andi x v reducesTo_S1024x50000_S_d0_1 h_S_) main_v2 main_c
  let main_v4 : FVec F S2000x128 .f32 := Host.absf main_arg4
  let main_cst_0 : FVec F S_ .f32 := constant S_ .f32 0x7F800000#32
  let main_v5 : FVec F S2000x128 .f32 := broadcastInDim S2000x128 ![] bcast_S_S2000x128 main_cst_0
  let main_v6 : IVec S2000x128 1 := cmpf .olt main_v4 main_v5
  let main_c_1 : IVec S_ 1 := constantI S_ 1 1#1
  let main_v7 : IVec S_ 1 := (fun x v => Host.reduce IntOp.andi x v reducesTo_S2000x128_S_d0_1 h_S_) main_v6 main_c_1
  let main_v8 : IVec S_ 1 := andi main_v3 main_v7
  let main_v9 : FVec F S_ .f32 := Host.absf main_arg5
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S1024x50000 : Shape := ⟨2, ![1024, 50000]⟩
abbrev S1024x200 : Shape := ⟨2, ![1024, 200]⟩
abbrev S1024 : Shape := ⟨1, ![1024]⟩
abbrev S50000 : Shape := ⟨1, ![50000]⟩
abbrev S2000x128 : Shape := ⟨2, ![2000, 128]⟩
abbrev S_ : Shape := ⟨0, ![]⟩
abbrev S1024x1 : Shape := ⟨2, ![1024, 1]⟩
abbrev S10 : Shape := ⟨1, ![10]⟩
abbrev S1x10 : Shape := ⟨2, ![1, 10]⟩
abbrev S1024x10 : Shape := ⟨2, ![1024, 10]⟩
abbrev S1024x10x1 : Shape := ⟨3, ![1024, 10, 1]⟩
abbrev S1 : Shape := ⟨1, ![1]⟩
abbrev S1x1x1 : Shape := ⟨3, ![1, 1, 1]⟩
abbrev S1024x10x128 : Shape := ⟨3, ![1024, 10, 128]⟩
abbrev S1024x128 : Shape := ⟨2, ![1024, 128]⟩
abbrev S50000x1 : Shape := ⟨2, ![50000, 1]⟩
abbrev S50000x128 : Shape := ⟨2, ![50000, 128]⟩
abbrev S1024x1024 : Shape := ⟨2, ![1024, 1024]⟩

abbrev nBuf : Space → Nat
  | .hbm => 91
  | .vmem => 7
  | .smem => 0
  | _ => 0

abbrev bufTy : (tb : Table) → Fin (tcTables nBuf tb) → BufTy
  | .hbm, ⟨0, _⟩ => ⟨S1024x50000, .f32⟩
  | .hbm, ⟨1, _⟩ => ⟨S1024x200, .i32⟩
  | .hbm, ⟨2, _⟩ => ⟨S1024, .i32⟩
  | .hbm, ⟨3, _⟩ => ⟨S50000, .i32⟩
  | .hbm, ⟨4, _⟩ => ⟨S2000x128, .f32⟩
  | .hbm, ⟨5, _⟩ => ⟨S_, .f32⟩
  | .hbm, ⟨6, _⟩ => ⟨S1024x1, .i32⟩
  | .hbm, ⟨7, _⟩ => ⟨S_, .i32⟩
  | .hbm, ⟨8, _⟩ => ⟨S1024x1, .i32⟩
  | .hbm, ⟨9, _⟩ => ⟨S1024x1, .i32⟩
  | .hbm, ⟨10, _⟩ => ⟨S10, .i32⟩
  | .hbm, ⟨11, _⟩ => ⟨S1x10, .i32⟩
  | .hbm, ⟨12, _⟩ => ⟨S1024x10, .i32⟩
  | .hbm, ⟨13, _⟩ => ⟨S1024x10, .i32⟩
  | .hbm, ⟨14, _⟩ => ⟨S1024x10, .i32⟩
  | .hbm, ⟨15, _⟩ => ⟨S_, .i32⟩
  | .hbm, ⟨16, _⟩ => ⟨S1024x10, .i32⟩
  | .hbm, ⟨17, _⟩ => ⟨S1024x10, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1024x10, .i32⟩
  | .hbm, ⟨22, _⟩ => ⟨S1024x10, .i32⟩
  | .hbm, ⟨23, _⟩ => ⟨S_, .i32⟩
  | .hbm, ⟨24, _⟩ => ⟨S1024x10, .i32⟩
  | .hbm, ⟨25, _⟩ => ⟨S1024x10, .i32⟩
  | .hbm, ⟨26, _⟩ => ⟨S_, .i32⟩
  | .hbm, ⟨27, _⟩ => ⟨S1024x10, .i32⟩
  | .hbm, ⟨28, _⟩ => ⟨S1024x10, .i1⟩
  | .hbm, ⟨29, _⟩ => ⟨S_, .i32⟩
  | .hbm, ⟨30, _⟩ => ⟨S1024x10, .i32⟩
  | .hbm, ⟨31, _⟩ => ⟨S1024x10, .i32⟩
  | .hbm, ⟨32, _⟩ => ⟨S1024x10, .i32⟩
  | .hbm, ⟨33, _⟩ => ⟨S1024x10x1, .i32⟩
  | .hbm, ⟨34, _⟩ => ⟨S1, .i32⟩
  | .hbm, ⟨35, _⟩ => ⟨S_, .i32⟩
  | .hbm, ⟨36, _⟩ => ⟨S1024x10x1, .i32⟩
  | .hbm, ⟨37, _⟩ => ⟨S1024x10x1, .i1⟩
  | .hbm, ⟨38, _⟩ => ⟨S1x1x1, .i32⟩
  | .hbm, ⟨39, _⟩ => ⟨S1024x10x1, .i32⟩
  | .hbm, ⟨40, _⟩ => ⟨S1024x10x1, .i1⟩
  | .hbm, ⟨41, _⟩ => ⟨S1024x10x1, .i1⟩
  | .hbm, ⟨42, _⟩ => ⟨S_, .i1⟩
  | .hbm, ⟨43, _⟩ => ⟨S1024x10, .i1⟩
  | .hbm, ⟨44, _⟩ => ⟨S1024x10, .i32⟩
  | .hbm, ⟨45, _⟩ => ⟨S_, .i32⟩
  | .hbm, ⟨46, _⟩ => ⟨S1024x10, .i32⟩
  | .hbm, ⟨47, _⟩ => ⟨S1024x10, .i32⟩
  | .hbm, ⟨48, _⟩ => ⟨S_, .i32⟩
  | .hbm, ⟨49, _⟩ => ⟨S1024x10, .i32⟩
  | .hbm, ⟨50, _⟩ => ⟨S1024x10, .i1⟩
  | .hbm, ⟨51, _⟩ => ⟨S_, .i32⟩
  | .hbm, ⟨52, _⟩ => ⟨S1024x10, .i32⟩
  | .hbm, ⟨53, _⟩ => ⟨S1024x10, .i32⟩
  | .hbm, ⟨54, _⟩ => ⟨S1024x10, .i32⟩
  | .hbm, ⟨55, _⟩ => ⟨S1024x10x1, .i32⟩
  | .hbm, ⟨56, _⟩ => ⟨S1024x10, .i32⟩
  | .hbm, ⟨57, _⟩ => ⟨S_, .i32⟩
  | .hbm, ⟨58, _⟩ => ⟨S1024x10, .i32⟩
  | .hbm, ⟨59, _⟩ => ⟨S1024x10, .i1⟩
  | .hbm, ⟨60, _⟩ => ⟨S_, .i32⟩
  | .hbm, ⟨61, _⟩ => ⟨S1024x10, .i32⟩
  | .hbm, ⟨62, _⟩ => ⟨S1024x10, .i32⟩
  | .hbm, ⟨63, _⟩ => ⟨S1024x10, .i32⟩
  | .hbm, ⟨64, _⟩ => ⟨S1024x10x1, .i32⟩
  | .hbm, ⟨65, _⟩ => ⟨S1024x10x128, .f32⟩
  | .hbm, ⟨66, _⟩ => ⟨S1024x10, .f32⟩
  | .hbm, ⟨67, _⟩ => ⟨S1024x10x1, .f32⟩
  | .hbm, ⟨68, _⟩ => ⟨S_, .f32⟩
  | .hbm, ⟨69, _⟩ => ⟨S1024x1, .f32⟩
  | .hbm, ⟨70, _⟩ => ⟨S_, .f32⟩
  | .hbm, ⟨71, _⟩ => ⟨S1024x1, .f32⟩
  | .hbm, ⟨72, _⟩ => ⟨S1024x1, .f32⟩
  | .hbm, ⟨73, _⟩ => ⟨S1024x10x128, .f32⟩
  | .hbm, ⟨74, _⟩ => ⟨S1024x10x128, .f32⟩
  | .hbm, ⟨75, _⟩ => ⟨S_, .f32⟩
  | .hbm, ⟨76, _⟩ => ⟨S1024x128, .f32⟩
  | .hbm, ⟨77, _⟩ => ⟨S1024x128, .f32⟩
  | .hbm, ⟨78, _⟩ => ⟨S1024x128, .f32⟩
  | .hbm, ⟨79, _⟩ => ⟨S1024x128, .f32⟩
  | .hbm, ⟨80, _⟩ => ⟨S1024x128, .f32⟩
  | .hbm, ⟨81, _⟩ => ⟨S_, .i32⟩
  | .hbm, ⟨82, _⟩ => ⟨S50000, .i32⟩
  | .hbm, ⟨83, _⟩ => ⟨S50000, .i1⟩
  | .hbm, ⟨84, _⟩ => ⟨S_, .i32⟩
  | .hbm, ⟨85, _⟩ => ⟨S50000, .i32⟩
  | .hbm, ⟨86, _⟩ => ⟨S50000, .i32⟩
  | .hbm, ⟨87, _⟩ => ⟨S50000, .i32⟩
  | .hbm, ⟨88, _⟩ => ⟨S50000x1, .i32⟩
  | .hbm, ⟨89, _⟩ => ⟨S50000x128, .f32⟩
  | .hbm, ⟨90, _⟩ => ⟨S1024x50000, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_c_4 : Ref sig .tc := ⟨.hbm, 45, rfl⟩
abbrev main_call1_v14 : Ref sig .tc := ⟨.hbm, 46, rfl⟩
abbrev main_v11 : Ref sig .tc := ⟨.hbm, 47, rfl⟩
abbrev main_c_3 : Ref sig .tc := ⟨.hbm, 48, rfl⟩
abbrev main_v12 : Ref sig .tc := ⟨.hbm, 49, rfl⟩
abbrev main_v13 : Ref sig .tc := ⟨.hbm, 50, rfl⟩
abbrev main_c_4 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_c_5 : Ref sig .tc := ⟨.hbm, 57, rfl⟩
abbrev main_v19 : Ref sig .tc := ⟨.hbm, 58, rfl⟩
abbrev main_v20 : Ref sig .tc := ⟨.hbm, 59, rfl⟩
abbrev main_c_6 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst : Ref sig .tc := ⟨.hbm, 68, rfl⟩
abbrev main_v28 : Ref sig .tc := ⟨.hbm, 69, rfl⟩
abbrev main_cst_7 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_8 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_c_9 : Ref sig .tc := ⟨.hbm, 81, rfl⟩
abbrev main_v38 : Ref sig .tc := ⟨.hbm, 82, rfl⟩
abbrev main_v39 : Ref sig .tc := ⟨.hbm, 83, rfl⟩
abbrev main_c_10 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S10_S1x10_1 : S10.BroadcastsInDim S1x10 (![1] : Fin 1 → Fin S1x10.rank)
  bcast_S1024x1_S1024x10_0_1 : S1024x1.BroadcastsInDim S1024x10 (![0, 1] : Fin 2 → Fin S1024x10.rank)
  bcast_S1x10_S1024x10_0_1 : S1x10.BroadcastsInDim S1024x10 (![0, 1] : Fin 2 → Fin S1024x10.rank)
  bcast_S_S1024x10 : S_.BroadcastsInDim S1024x10 (![] : Fin 0 → Fin S1024x10.rank)
  shapeCasts_S1024x10_S1024x10x1 : S1024x10.ShapeCasts S1024x10x1
  bcast_S_S1024x10x1 : S_.BroadcastsInDim S1024x10x1 (![] : Fin 0 → Fin S1024x10x1.rank)
  bcast_S1_S1x1x1_2 : S1.BroadcastsInDim S1x1x1 (![2] : Fin 1 → Fin S1x1x1.rank)
  bcast_S1x1x1_S1024x10x1_0_1_2 : S1x1x1.BroadcastsInDim S1024x10x1 (![0, 1, 2] : Fin 3 → Fin S1024x10x1.rank)
  reducesTo_S1024x10x1_S1024x10_d2 : S1024x10x1.ReducesTo [2] S1024x10
  h_S_ : 0 < S_.numel
  bcast_S1024x10_S1024x10x1_0_1 : S1024x10.BroadcastsInDim S1024x10x1 (![0, 1] : Fin 2 → Fin S1024x10x1.rank)
  reducesTo_S1024x10x1_S1024x1_d1 : S1024x10x1.ReducesTo [1] S1024x1
  bcast_S1024x10x1_S1024x10x128_0_1_2 : S1024x10x1.BroadcastsInDim S1024x10x128 (![0, 1, 2] : Fin 3 → Fin S1024x10x128.rank)
  reducesTo_S1024x10x128_S1024x128_d1 : S1024x10x128.ReducesTo [1] S1024x128
  bcast_S1024x1_S1024x128_0_1 : S1024x1.BroadcastsInDim S1024x128 (![0, 1] : Fin 2 → Fin S1024x128.rank)
  bcast_S_S1024x128 : S_.BroadcastsInDim S1024x128 (![] : Fin 0 → Fin S1024x128.rank)
  bcast_S_S50000 : S_.BroadcastsInDim S50000 (![] : Fin 0 → Fin S50000.rank)
  bcast_S50000_S50000x1_0 : S50000.BroadcastsInDim S50000x1 (![0] : Fin 1 → Fin S50000x1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  gather_S1024x200_S1024x10x1_S1024x10_n_1_0_0_1_2_11_wf : GatherDims.WF S1024x200 S1024x10x1 S1024x10 [] [1] [0] [1] [0] 2 ![1, 1]
  gather_S50000_S1024x10x1_S1024x10_n_0_n_n_0_2_1_wf : GatherDims.WF S50000 S1024x10x1 S1024x10 [] [0] [] [0] [] 2 ![1]
  gather_S2000x128_S1024x10x1_S1024x10x128_2_0_n_n_0_2_1128_wf : GatherDims.WF S2000x128 S1024x10x1 S1024x10x128 [2] [0] [] [0] [] 2 ![1, 128]
  gather_S2000x128_S50000x1_S50000x128_1_0_n_n_0_1_1128_wf : GatherDims.WF S2000x128 S50000x1 S50000x128 [1] [0] [] [0] [] 1 ![1, 128]
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x128.size a < S50000x128.size a
  hwx0_1 : ∀ i : grid0.Coords, EltTy.bits .f32 = 32 ∨ (Rect.unit (s := S50000x128) (fun a => cc0_transform_1 i a * S1024x128.size a) (fun a => (Pipeline.Clip.of (cc0_transform_1 i a) (S1024x128.size a) (S50000x128.size a)).extent (S1024x128.size a)) fun a => Pipeline.Clip.inb (Pipeline.Clip.ok_of (hstart0_1 i a))).WholeWords (EltTy.packing .f32)
  hwxs0_1 : ∀ i : grid0.Coords, EltTy.bits .f32 = 32 ∨ (Rect.unit (s := S1024x128) (fun _ => 0) (fun a => (Pipeline.Clip.of (cc0_transform_1 i a) (S1024x128.size a) (S50000x128.size a)).extent (S1024x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1024.size a < S1024x50000.size a
  hwx0_2 : ∀ i : grid0.Coords, EltTy.bits .f32 = 32 ∨ (Rect.unit (s := S1024x50000) (fun a => cc0_transform_2 i a * S1024x1024.size a) (fun a => (Pipeline.Clip.of (cc0_transform_2 i a) (S1024x1024.size a) (S1024x50000.size a)).extent (S1024x1024.size a)) fun a => Pipeline.Clip.inb (Pipeline.Clip.ok_of (hstart0_2 i a))).WholeWords (EltTy.packing .f32)
  hwxs0_2 : ∀ i : grid0.Coords, EltTy.bits .f32 = 32 ∨ (Rect.unit (s := S1024x1024) (fun _ => 0) (fun a => (Pipeline.Clip.of (cc0_transform_2 i a) (S1024x1024.size a) (S1024x50000.size a)).extent (S1024x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S1024x50000.size a
  hwx0_3 : ∀ i : grid0.Coords, EltTy.bits .f32 = 32 ∨ (Rect.unit (s := S1024x50000) (fun a => cc0_transform_3 i a * S1024x1024.size a) (fun a => (Pipeline.Clip.of (cc0_transform_3 i a) (S1024x1024.size a) (S1024x50000.size a)).extent (S1024x1024.size a)) fun a => Pipeline.Clip.inb (Pipeline.Clip.ok_of (hstart0_3 i a))).WholeWords (EltTy.packing .f32)
  hwxs0_3 : ∀ i : grid0.Coords, EltTy.bits .f32 = 32 ∨ (Rect.unit (s := S1024x1024) (fun _ => 0) (fun a => (Pipeline.Clip.of (cc0_transform_3 i a) (S1024x1024.size a) (S1024x50000.size a)).extent (S1024x1024.size a)) fun a => (Nat.zero_add _).trans_le (Pipeline.Clip.extent_le (Pipeline.Clip.ok_of (hstart0_3 i a)))).WholeWords (EltTy.packing .f32)

variable [Facts₀]

def gather_S1024x200_S1024x10x1_S1024x10_n_1_0_0_1_2_11 : GatherDims S1024x200 S1024x10x1 S1024x10 where
  offsetDims := []
  collapsedSliceDims := [1]
  operandBatchingDims := [0]
  startIndicesBatchingDims := [0]
  startIndexMap := [1]
  indexVectorDim := 2
  sliceSizes := ![1, 1]
  wf := gather_S1024x200_S1024x10x1_S1024x10_n_1_0_0_1_2_11_wf
def gather_S50000_S1024x10x1_S1024x10_n_0_n_n_0_2_1 : GatherDims S50000 S1024x10x1 S1024x10 where
  offsetDims := []
  collapsedSliceDims := [0]
  operandBatchingDims := []
  startIndicesBatchingDims := []
  startIndexMap := [0]
  indexVectorDim := 2
  sliceSizes := ![1]
  wf := gather_S50000_S1024x10x1_S1024x10_n_0_n_n_0_2_1_wf
def gather_S2000x128_S1024x10x1_S1024x10x128_2_0_n_n_0_2_1128 : GatherDims S2000x128 S1024x10x1 S1024x10x128 where
  offsetDims := [2]
  collapsedSliceDims := [0]
  operandBatchingDims := []
  startIndicesBatchingDims := []
  startIndexMap := [0]
  indexVectorDim := 2
  sliceSizes := ![1, 128]
  wf := gather_S2000x128_S1024x10x1_S1024x10x128_2_0_n_n_0_2_1128_wf
def gather_S2000x128_S50000x1_S50000x128_1_0_n_n_0_1_1128 : GatherDims S2000x128 S50000x1 S50000x128 where
  offsetDims := [1]
  collapsedSliceDims := [0]
  operandBatchingDims := []
  startIndicesBatchingDims := []
  startIndexMap := [0]
  indexVectorDim := 1
  sliceSizes := ![1, 128]
  wf := gather_S2000x128_S50000x1_S50000x128_1_0_n_n_0_1_1128_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v37) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v44) S1024x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg0) S1024x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v45) S1024x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x50000 : Shape := ⟨2, ![1024, 50000]⟩
abbrev S1024x200 : Shape := ⟨2, ![1024, 200]⟩
abbrev S1024 : Shape := ⟨1, ![1024]⟩
abbrev S50000 : Shape := ⟨1, ![50000]⟩
abbrev S2000x128 : Shape := ⟨2, ![2000, 128]⟩
abbrev S_ : Shape := ⟨0, ![]⟩
abbrev S1024x1 : Shape := ⟨2, ![1024, 1]⟩
abbrev S10 : Shape := ⟨1, ![10]⟩
abbrev S1x10 : Shape := ⟨2, ![1, 10]⟩
abbrev S1024x10 : Shape := ⟨2, ![1024, 10]⟩
abbrev S1024x10x1 : Shape := ⟨3, ![1024, 10, 1]⟩
abbrev S1 : Shape := ⟨1, ![1]⟩
abbrev S1x1x1 : Shape := ⟨3, ![1, 1, 1]⟩
abbrev S1024x10x128 : Shape := ⟨3, ![1024, 10, 128]⟩
abbrev S1024x128 : Shape := ⟨2, ![1024, 128]⟩
abbrev S50000x1 : Shape := ⟨2, ![50000, 1]⟩
abbrev S50000x128 : Shape := ⟨2, ![50000, 128]⟩

abbrev nBuf : Space → Nat
  | .hbm => 92
  | .vmem => 0
  | .smem => 0
  | _ => 0

abbrev bufTy : (tb : Table) → Fin (tcTables nBuf tb) → BufTy
  | .hbm, ⟨0, _⟩ => ⟨S1024x50000, .f32⟩
  | .hbm, ⟨1, _⟩ => ⟨S1024x200, .i32⟩
  | .hbm, ⟨2, _⟩ => ⟨S1024, .i32⟩
  | .hbm, ⟨3, _⟩ => ⟨S50000, .i32⟩
  | .hbm, ⟨4, _⟩ => ⟨S2000x128, .f32⟩
  | .hbm, ⟨5, _⟩ => ⟨S_, .f32⟩
  | .hbm, ⟨6, _⟩ => ⟨S1024x1, .i32⟩
  | .hbm, ⟨7, _⟩ => ⟨S_, .i32⟩
  | .hbm, ⟨8, _⟩ => ⟨S1024x1, .i32⟩
  | .hbm, ⟨9, _⟩ => ⟨S1024x1, .i32⟩
  | .hbm, ⟨10, _⟩ => ⟨S10, .i32⟩
  | .hbm, ⟨11, _⟩ => ⟨S1x10, .i32⟩
  | .hbm, ⟨12, _⟩ => ⟨S1024x10, .i32⟩
  | .hbm, ⟨13, _⟩ => ⟨S1024x10, .i32⟩
  | .hbm, ⟨14, _⟩ => ⟨S1024x10, .i32⟩
  | .hbm, ⟨15, _⟩ => ⟨S_, .i32⟩
  | .hbm, ⟨16, _⟩ => ⟨S1024x10, .i32⟩
  | .hbm, ⟨17, _⟩ => ⟨S1024x10, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1024x10, .i32⟩
  | .hbm, ⟨22, _⟩ => ⟨S1024x10, .i32⟩
  | .hbm, ⟨23, _⟩ => ⟨S_, .i32⟩
  | .hbm, ⟨24, _⟩ => ⟨S1024x10, .i32⟩
  | .hbm, ⟨25, _⟩ => ⟨S1024x10, .i32⟩
  | .hbm, ⟨26, _⟩ => ⟨S_, .i32⟩
  | .hbm, ⟨27, _⟩ => ⟨S1024x10, .i32⟩
  | .hbm, ⟨28, _⟩ => ⟨S1024x10, .i1⟩
  | .hbm, ⟨29, _⟩ => ⟨S_, .i32⟩
  | .hbm, ⟨30, _⟩ => ⟨S1024x10, .i32⟩
  | .hbm, ⟨31, _⟩ => ⟨S1024x10, .i32⟩
  | .hbm, ⟨32, _⟩ => ⟨S1024x10, .i32⟩
  | .hbm, ⟨33, _⟩ => ⟨S1024x10x1, .i32⟩
  | .hbm, ⟨34, _⟩ => ⟨S1, .i32⟩
  | .hbm, ⟨35, _⟩ => ⟨S_, .i32⟩
  | .hbm, ⟨36, _⟩ => ⟨S1024x10x1, .i32⟩
  | .hbm, ⟨37, _⟩ => ⟨S1024x10x1, .i1⟩
  | .hbm, ⟨38, _⟩ => ⟨S1x1x1, .i32⟩
  | .hbm, ⟨39, _⟩ => ⟨S1024x10x1, .i32⟩
  | .hbm, ⟨40, _⟩ => ⟨S1024x10x1, .i1⟩
  | .hbm, ⟨41, _⟩ => ⟨S1024x10x1, .i1⟩
  | .hbm, ⟨42, _⟩ => ⟨S_, .i1⟩
  | .hbm, ⟨43, _⟩ => ⟨S1024x10, .i1⟩
  | .hbm, ⟨44, _⟩ => ⟨S1024x10, .i32⟩
  | .hbm, ⟨45, _⟩ => ⟨S_, .i32⟩
  | .hbm, ⟨46, _⟩ => ⟨S1024x10, .i32⟩
  | .hbm, ⟨47, _⟩ => ⟨S1024x10, .i32⟩
  | .hbm, ⟨48, _⟩ => ⟨S_, .i32⟩
  | .hbm, ⟨49, _⟩ => ⟨S1024x10, .i32⟩
  | .hbm, ⟨50, _⟩ => ⟨S1024x10, .i1⟩
  | .hbm, ⟨51, _⟩ => ⟨S_, .i32⟩
  | .hbm, ⟨52, _⟩ => ⟨S1024x10, .i32⟩
  | .hbm, ⟨53, _⟩ => ⟨S1024x10, .i32⟩
  | .hbm, ⟨54, _⟩ => ⟨S1024x10, .i32⟩
  | .hbm, ⟨55, _⟩ => ⟨S1024x10x1, .i32⟩
  | .hbm, ⟨56, _⟩ => ⟨S1024x10, .i32⟩
  | .hbm, ⟨57, _⟩ => ⟨S_, .i32⟩
  | .hbm, ⟨58, _⟩ => ⟨S1024x10, .i32⟩
  | .hbm, ⟨59, _⟩ => ⟨S1024x10, .i1⟩
  | .hbm, ⟨60, _⟩ => ⟨S_, .i32⟩
  | .hbm, ⟨61, _⟩ => ⟨S1024x10, .i32⟩
  | .hbm, ⟨62, _⟩ => ⟨S1024x10, .i32⟩
  | .hbm, ⟨63, _⟩ => ⟨S1024x10, .i32⟩
  | .hbm, ⟨64, _⟩ => ⟨S1024x10x1, .i32⟩
  | .hbm, ⟨65, _⟩ => ⟨S1024x10x128, .f32⟩
  | .hbm, ⟨66, _⟩ => ⟨S1024x10, .f32⟩
  | .hbm, ⟨67, _⟩ => ⟨S1024x10x1, .f32⟩
  | .hbm, ⟨68, _⟩ => ⟨S_, .f32⟩
  | .hbm, ⟨69, _⟩ => ⟨S1024x1, .f32⟩
  | .hbm, ⟨70, _⟩ => ⟨S_, .f32⟩
  | .hbm, ⟨71, _⟩ => ⟨S1024x1, .f32⟩
  | .hbm, ⟨72, _⟩ => ⟨S1024x1, .f32⟩
  | .hbm, ⟨73, _⟩ => ⟨S1024x10x128, .f32⟩
  | .hbm, ⟨74, _⟩ => ⟨S1024x10x128, .f32⟩
  | .hbm, ⟨75, _⟩ => ⟨S_, .f32⟩
  | .hbm, ⟨76, _⟩ => ⟨S1024x128, .f32⟩
  | .hbm, ⟨77, _⟩ => ⟨S1024x128, .f32⟩
  | .hbm, ⟨78, _⟩ => ⟨S1024x128, .f32⟩
  | .hbm, ⟨79, _⟩ => ⟨S_, .i32⟩
  | .hbm, ⟨80, _⟩ => ⟨S50000, .i32⟩
  | .hbm, ⟨81, _⟩ => ⟨S50000, .i1⟩
  | .hbm, ⟨82, _⟩ => ⟨S_, .i32⟩
  | .hbm, ⟨83, _⟩ => ⟨S50000, .i32⟩
  | .hbm, ⟨84, _⟩ => ⟨S50000, .i32⟩
  | .hbm, ⟨85, _⟩ => ⟨S50000, .i32⟩
  | .hbm, ⟨86, _⟩ => ⟨S50000x1, .i32⟩
  | .hbm, ⟨87, _⟩ => ⟨S50000x128, .f32⟩
  | .hbm, ⟨88, _⟩ => ⟨S1024x50000, .f32⟩
  | .hbm, ⟨89, _⟩ => ⟨S1024x50000, .f32⟩
  | .hbm, ⟨90, _⟩ => ⟨S1024x50000, .f32⟩
  | .hbm, ⟨91, _⟩ => ⟨S1024x50000, .f32⟩
  | _, _ => ⟨S1024x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_c_4 : Ref sig .tc := ⟨.hbm, 45, rfl⟩
abbrev main_call1_v14 : Ref sig .tc := ⟨.hbm, 46, rfl⟩
abbrev main_v11 : Ref sig .tc := ⟨.hbm, 47, rfl⟩
abbrev main_c_3 : Ref sig .tc := ⟨.hbm, 48, rfl⟩
abbrev main_v12 : Ref sig .tc := ⟨.hbm, 49, rfl⟩
abbrev main_v13 : Ref sig .tc := ⟨.hbm, 50, rfl⟩
abbrev main_c_4 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_c_5 : Ref sig .tc := ⟨.hbm, 57, rfl⟩
abbrev main_v19 : Ref sig .tc := ⟨.hbm, 58, rfl⟩
abbrev main_v20 : Ref sig .tc := ⟨.hbm, 59, rfl⟩
abbrev main_c_6 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst : Ref sig .tc := ⟨.hbm, 68, rfl⟩
abbrev main_v28 : Ref sig .tc := ⟨.hbm, 69, rfl⟩
abbrev main_cst_7 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_8 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_c_9 : Ref sig .tc := ⟨.hbm, 79, rfl⟩
abbrev main_v36 : Ref sig .tc := ⟨.hbm, 80, rfl⟩
abbrev main_v37 : Ref sig .tc := ⟨.hbm, 81, rfl⟩
abbrev main_c_10 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S10_S1x10_1 : S10.BroadcastsInDim S1x10 (![1] : Fin 1 → Fin S1x10.rank)
  bcast_S1024x1_S1024x10_0_1 : S1024x1.BroadcastsInDim S1024x10 (![0, 1] : Fin 2 → Fin S1024x10.rank)
  bcast_S1x10_S1024x10_0_1 : S1x10.BroadcastsInDim S1024x10 (![0, 1] : Fin 2 → Fin S1024x10.rank)
  bcast_S_S1024x10 : S_.BroadcastsInDim S1024x10 (![] : Fin 0 → Fin S1024x10.rank)
  shapeCasts_S1024x10_S1024x10x1 : S1024x10.ShapeCasts S1024x10x1
  bcast_S_S1024x10x1 : S_.BroadcastsInDim S1024x10x1 (![] : Fin 0 → Fin S1024x10x1.rank)
  bcast_S1_S1x1x1_2 : S1.BroadcastsInDim S1x1x1 (![2] : Fin 1 → Fin S1x1x1.rank)
  bcast_S1x1x1_S1024x10x1_0_1_2 : S1x1x1.BroadcastsInDim S1024x10x1 (![0, 1, 2] : Fin 3 → Fin S1024x10x1.rank)
  reducesTo_S1024x10x1_S1024x10_d2 : S1024x10x1.ReducesTo [2] S1024x10
  h_S_ : 0 < S_.numel
  bcast_S1024x10_S1024x10x1_0_1 : S1024x10.BroadcastsInDim S1024x10x1 (![0, 1] : Fin 2 → Fin S1024x10x1.rank)
  reducesTo_S1024x10x1_S1024x1_d1 : S1024x10x1.ReducesTo [1] S1024x1
  bcast_S1024x10x1_S1024x10x128_0_1_2 : S1024x10x1.BroadcastsInDim S1024x10x128 (![0, 1, 2] : Fin 3 → Fin S1024x10x128.rank)
  reducesTo_S1024x10x128_S1024x128_d1 : S1024x10x128.ReducesTo [1] S1024x128
  bcast_S1024x1_S1024x128_0_1 : S1024x1.BroadcastsInDim S1024x128 (![0, 1] : Fin 2 → Fin S1024x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S1024x50000 : S_.BroadcastsInDim S1024x50000 (![] : Fin 0 → Fin S1024x50000.rank)
  gather_S1024x200_S1024x10x1_S1024x10_n_1_0_0_1_2_11_wf : GatherDims.WF S1024x200 S1024x10x1 S1024x10 [] [1] [0] [1] [0] 2 ![1, 1]
  gather_S50000_S1024x10x1_S1024x10_n_0_n_n_0_2_1_wf : GatherDims.WF S50000 S1024x10x1 S1024x10 [] [0] [] [0] [] 2 ![1]
  gather_S2000x128_S1024x10x1_S1024x10x128_2_0_n_n_0_2_1128_wf : GatherDims.WF S2000x128 S1024x10x1 S1024x10x128 [2] [0] [] [0] [] 2 ![1, 128]
  gather_S2000x128_S50000x1_S50000x128_1_0_n_n_0_1_1128_wf : GatherDims.WF S2000x128 S50000x1 S50000x128 [1] [0] [] [0] [] 1 ![1, 128]
  dot_S1024x128_S50000x128_S1024x50000_1_1_0_0_n_n_wf : DotDims.WF S1024x128 S50000x128 S1024x50000 [1] [1] [0] [0] [] []

variable [Facts₀]

def gather_S1024x200_S1024x10x1_S1024x10_n_1_0_0_1_2_11 : GatherDims S1024x200 S1024x10x1 S1024x10 where
  offsetDims := []
  collapsedSliceDims := [1]
  operandBatchingDims := [0]
  startIndicesBatchingDims := [0]
  startIndexMap := [1]
  indexVectorDim := 2
  sliceSizes := ![1, 1]
  wf := gather_S1024x200_S1024x10x1_S1024x10_n_1_0_0_1_2_11_wf
def gather_S50000_S1024x10x1_S1024x10_n_0_n_n_0_2_1 : GatherDims S50000 S1024x10x1 S1024x10 where
  offsetDims := []
  collapsedSliceDims := [0]
  operandBatchingDims := []
  startIndicesBatchingDims := []
  startIndexMap := [0]
  indexVectorDim := 2
  sliceSizes := ![1]
  wf := gather_S50000_S1024x10x1_S1024x10_n_0_n_n_0_2_1_wf
def gather_S2000x128_S1024x10x1_S1024x10x128_2_0_n_n_0_2_1128 : GatherDims S2000x128 S1024x10x1 S1024x10x128 where
  offsetDims := [2]
  collapsedSliceDims := [0]
  operandBatchingDims := []
  startIndicesBatchingDims := []
  startIndexMap := [0]
  indexVectorDim := 2
  sliceSizes := ![1, 128]
  wf := gather_S2000x128_S1024x10x1_S1024x10x128_2_0_n_n_0_2_1128_wf
def gather_S2000x128_S50000x1_S50000x128_1_0_n_n_0_1_1128 : GatherDims S2000x128 S50000x1 S50000x128 where
  offsetDims := [1]
  collapsedSliceDims := [0]
  operandBatchingDims := []
  startIndicesBatchingDims := []
  startIndexMap := [0]
  indexVectorDim := 1
  sliceSizes := ![1, 128]
  wf := gather_S2000x128_S50000x1_S50000x128_1_0_n_n_0_1_1128_wf
def dot_S1024x128_S50000x128_S1024x50000_1_1_0_0_n_n : DotDims S1024x128 S50000x128 S1024x50000 where
  lhsContracting := [1]
  rhsContracting := [1]
  lhsNonContracting := [0]
  rhsNonContracting := [0]
  lhsBatch := []
  rhsBatch := []
  wf := dot_S1024x128_S50000x128_S1024x50000_1_1_0_0_n_n_wf

class Facts : Prop extends Facts₀ where

variable [Facts]
-- ==== Proof.BodyBits.lean ====
/-
  The kernel body at one grid point, and the data the pipeline's frame run is instantiated with.

  The body loads three staged blocks — the scaled user preferences u [1024, 128], the rows r [1024, 128] of the
  place embeddings that belong to the point's 1024 places, the base scores p [1024, 1024] —, forms
  p + u · rᵀ and stores it over the whole result block. The last of the 49 points overhangs the arrays of 50000
  places by 176: there the fetches fill only the leading 848 rows of r (columns of p) and the write-back writes only
  the leading 848 columns of the result, so of each such staging buffer only that leading part is described: the rest
  is a filler nothing reads back.
-/
import proofs.«106344_j7430293422638_1_alg».proof.Proof.Gen.Kernel.Frame
import proofs.«106344_j7430293422638_1_alg».proof.Proof.Gen.Kernel.Skeleton
import Idealize.ShloMosaic.Lib.Pipeline.Frame
import Idealize.ShloMosaic.Lib.Pipeline.FrameBody
import Idealize.ShloMosaic.Lib.Tactic
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses and what it stores -/

/-- The whole [1024, 128] buffer as a rectangle: what the two narrow loads read. -/
abbrev rNarrow : Rect S1024x128 := Rect.unit (s := S1024x128) ![0, 0] S1024x128.size inb_S1024x128_S1024x128_0_0
/-- The whole [1024, 1024] buffer as a rectangle: what the wide load reads and the store writes. -/
abbrev rWide : Rect S1024x1024 := Rect.unit (s := S1024x1024) ![0, 0] S1024x1024.size inb_S1024x1024_S1024x1024_0_0

/-- What the result's staging buffer holds after the body, from what the three input buffers hold: the one
    store's value, laid over the whole buffer. -/
def outBlock (x0 x1 : Vec F S1024x128 .f32) (x2 : Vec F S1024x1024 .f32) : Vec F S1024x1024 .f32 :=
  View.canon [⟨rWide, k0_pay1 (View.ld x0 rNarrow) (View.ld x1 rNarrow) (View.ld x2 rWide)⟩]

/-- The one store covers the buffer. -/
theorem cover_out (p0 : Vec F S1024x1024 .f32) (y : S1024x1024.Idx) :
    ∃ pc ∈ ([⟨rWide, p0⟩] : List (View.Piece (Elt F) S1024x1024 .f32)), y ∈ pc.1.set :=
  View.cover_of_tiled [⟨rWide, p0⟩] S1024x1024.size (by rfl) y

private theorem zero_off : (![0, 0] : Fin 2 → Nat) = fun _ => 0 := funext fun a => by fin_cases a <;> rfl

/-- The store's value is the body's arithmetic of the three buffers' contents, entry by entry. -/
theorem outBlock_eq (x0 x1 : Vec F S1024x128 .f32) (x2 : Vec F S1024x1024 .f32) :
    outBlock x0 x1 x2 = k0_pay1 x0 x1 x2 := by
  unfold outBlock
  rw [View.canon_unit_zero zero_off]
  simp only [View.ld_unit_zero (S := S1024x128) zero_off, View.ld_unit_zero (S := S1024x1024) zero_off]

/-! ## The body's triple -/

set_option maxHeartbeats 1000000 in
/-- On whole staging memrefs, the inputs' at contents `x0`, `x1`, `x2` and the result's at anything, the body runs
    to the continuation holding the inputs' as they were and the result's at `outBlock` of them. -/
theorem sound_kernel (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x1024 .f32) (harg3 : arg3.IsWhole) (arg4 : Memref sig .tc .vmem S1024x1024 .f32) (harg4 : arg4.IsWhole)
    (x0 x1 : Vec F S1024x128 .f32) (x2 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__matmul_add_kernel i arg1 harg1 arg2 harg2 arg3 harg3 arg4 harg4) K := by
  simp only [cc0__matmul_add_kernel_eq_skeleton]; unfold cc0__matmul_add_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Body

end
-- ==== Proof.DataBits.lean ====
/-
  The frame run of the kernel as printed (at the word level): its proof data, the body's obligation at a generic grid
  point, the run, and the frame.

  The frame says nothing of what the kernel leaves in the result array, so the result's staging buffer is handed to
  the body at any contents and taken back at any contents. The three input buffers come back as the body found
  them: u's one block; the point's rows of r and columns of the base scores, described on the part inside the
  arrays only (the last point overhangs the 50000 places by 176).
-/
import proofs.«106344_j7430293422638_1_alg».proof.Proof.BodyBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result's window is the one nothing is said of. -/
def forgets : Fin 4 → Bool := fun w => w.val == 3

/-- The point's rows of r as its staging buffer holds them after the body: the block inside the array, then a filler. -/
def rowsFill (c : Dev nD) (t : Fin cfg0.N) : S1024x128.Idx → Elt F .f32 :=
  win0_1.fill (grid0.coords t) (fun _ => Scalar.ofBits .f32 0#32) (iblk m c 1 t)
/-- The point's columns of the base scores likewise. -/
def baseFill (c : Dev nD) (t : Fin cfg0.N) : S1024x1024.Idx → Elt F .f32 :=
  win0_2.fill (grid0.coords t) (fun _ => Scalar.ofBits .f32 0#32) (iblk m c 2 t)

/-- The arrays as the region finds them; after the body the input buffers as above, the result's not named; the
    class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => rowsFill m c t
    | ⟨2, _⟩ => baseFill m c t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = rowsFill m c t := by dsimp only [dats]
theorem after2 (c : Dev nD) (t : Fin cfg0.N) : (dats m 0 c).after 2 t = baseFill m c t := by dsimp only [dats]

/-- u's buffer holds its one block at every point. -/
theorem before0 (c : Dev nD) (t : Fin cfg0.N) (d) : (dats m 0 c).before 0 t d = iblk m c 0 t :=
  before0_0_of m (dats m 0 c) (A_eq m c 0) (after0 m c) t d
/-- r's and the base scores' buffers are fetched at every point: the block inside the array, anything past it. -/
theorem before1 (c : Dev nD) (t : Fin cfg0.N) (d) :
    (dats m 0 c).before 1 t d = win0_1.fill (grid0.coords t) d (iblk m c 1 t) := by
  unfold Dat.before; rw [if_pos (fetch0_1 t)]; rfl
theorem before2 (c : Dev nD) (t : Fin cfg0.N) (d) :
    (dats m 0 c).before 2 t d = win0_2.fill (grid0.coords t) d (iblk m c 2 t) := by
  unfold Dat.before; rw [if_pos (fetch0_2 t)]; rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩, ⟨%d3, H3⟩⟩
  iapply (sound_kernel (F := F) c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; unfold rowsFill; rw [Window.cut_fill]; iexact H1
  isplitl [H2]
  · iexists d2; unfold baseFill; rw [Window.cut_fill]; iexact H2
  · iexists _; iexact H3

/-- The library's body obligation, at every point, the result's window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates; every input array of the pipeline ends unchanged, nothing is
    stated of the result's, and every other unscoped buffer ends as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the six argument arrays end as launched — the base scores as an input array of the pipeline, the other
    five as buffers the region never touches, none written by the host operations before it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(Eq.mp (congrFun (((dats m 0 c).toRForget forgets).ArrAt_in 2 rfl _) _) ((h c).1 2)).trans ((A_eq m c 2).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.Kernel.Body

end
-- ==== Proof.BodyIdeal.lean ====
/-
  The kernel body at one grid point, and the data the pipeline's frame run is instantiated with.

  The body loads three staged blocks — the scaled user preferences u [1024, 128], the rows r [1024, 128] of the
  place embeddings that belong to the point's 1024 places, the base scores p [1024, 1024] —, forms
  p + u · rᵀ and stores it over the whole result block. The last of the 49 points overhangs the arrays of 50000
  places by 176: there the fetches fill only the leading 848 rows of r (columns of p) and the write-back writes only
  the leading 848 columns of the result, so of each such staging buffer only that leading part is described: the rest
  is a filler nothing reads back.
-/
import proofs.«106344_j7430293422638_1_alg».proof.Proof.Gen.KernelIdeal.Frame
import proofs.«106344_j7430293422638_1_alg».proof.Proof.Gen.KernelIdeal.Skeleton
import Idealize.ShloMosaic.Lib.Pipeline.Frame
import Idealize.ShloMosaic.Lib.Pipeline.FrameBody
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses and what it stores -/

/-- The whole [1024, 128] buffer as a rectangle: what the two narrow loads read. -/
abbrev rNarrow : Rect S1024x128 := Rect.unit (s := S1024x128) ![0, 0] S1024x128.size inb_S1024x128_S1024x128_0_0
/-- The whole [1024, 1024] buffer as a rectangle: what the wide load reads and the store writes. -/
abbrev rWide : Rect S1024x1024 := Rect.unit (s := S1024x1024) ![0, 0] S1024x1024.size inb_S1024x1024_S1024x1024_0_0

/-- What the result's staging buffer holds after the body, from what the three input buffers hold: the one
    store's value, laid over the whole buffer. -/
def outBlock (x0 x1 : Vec F S1024x128 .f32) (x2 : Vec F S1024x1024 .f32) : Vec F S1024x1024 .f32 :=
  View.canon [⟨rWide, k0_pay1 (View.ld x0 rNarrow) (View.ld x1 rNarrow) (View.ld x2 rWide)⟩]

/-- The one store covers the buffer. -/
theorem cover_out (p0 : Vec F S1024x1024 .f32) (y : S1024x1024.Idx) :
    ∃ pc ∈ ([⟨rWide, p0⟩] : List (View.Piece (Elt F) S1024x1024 .f32)), y ∈ pc.1.set :=
  View.cover_of_tiled [⟨rWide, p0⟩] S1024x1024.size (by rfl) y

private theorem zero_off : (![0, 0] : Fin 2 → Nat) = fun _ => 0 := funext fun a => by fin_cases a <;> rfl

/-- The store's value is the body's arithmetic of the three buffers' contents, entry by entry. -/
theorem outBlock_eq (x0 x1 : Vec F S1024x128 .f32) (x2 : Vec F S1024x1024 .f32) :
    outBlock x0 x1 x2 = k0_pay1 x0 x1 x2 := by
  unfold outBlock
  rw [View.canon_unit_zero zero_off]
  simp only [View.ld_unit_zero (S := S1024x128) zero_off, View.ld_unit_zero (S := S1024x1024) zero_off]

/-! ## The body's triple -/

set_option maxHeartbeats 1000000 in
/-- On whole staging memrefs, the inputs' at contents `x0`, `x1`, `x2` and the result's at anything, the body runs
    to the continuation holding the inputs' as they were and the result's at `outBlock` of them. -/
theorem sound_kernel (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x1024 .f32) (harg3 : arg3.IsWhole) (arg4 : Memref sig .tc .vmem S1024x1024 .f32) (harg4 : arg4.IsWhole)
    (x0 x1 : Vec F S1024x128 .f32) (x2 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__matmul_add_kernel i arg1 harg1 arg2 harg2 arg3 harg3 arg4 harg4) K := by
  simp only [cc0__matmul_add_kernel_eq_skeleton]; unfold cc0__matmul_add_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Body

end
-- ==== Proof.LibTransposedDot.lean ====
/-
  A product with the right operand transposed, read at an index, on the extended reals.

  For the dimension numbers of an M×K by N×K product (contract the left operand's axis 1 with the
  right operand's axis 1, no batch axis), the entry (p, q) of the product is ∑ k, a[p, k] · b[q, k]:
  for a matmul into the zero splat and for the host's dot_general. The contraction's one-axis index
  is re-indexed to its coordinate.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's row coordinate is the output's row. -/
theorem lhs_row (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's row coordinate is the output's column. -/
theorem rhs_row (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output (p, q) and contraction coordinate k is (p, k). -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => exact lhs_row M K N (ix2 p q) _
  | ⟨1, _⟩ => exact ((DotDims.transposedRhs M K N).lhsIdx_val_of_single rfl (ix2 p q) _).trans hk

/-- The right operand's index at output (p, q) and contraction coordinate k is (q, k). -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => exact rhs_row M K N (ix2 p q) _
  | ⟨1, _⟩ => exact ((DotDims.transposedRhs M K N).rhsIdx_val_of_single rfl (ix2 p q) _).trans hk

/-- The contraction sum at (p, q) is the sum over the shared last coordinate. -/
theorem contr_sum (a : (⟨2, ![M, K]⟩ : Shape).Idx → EReal) (b : (⟨2, ![N, K]⟩ : Shape).Idx → EReal) (p : Fin M) (q : Fin N) :
    (∑ k : (DotDims.transposedRhs M K N).contr.Idx,
        a ((DotDims.transposedRhs M K N).lhsIdx (ix2 p q) k) * b ((DotDims.transposedRhs M K N).rhsIdx (ix2 p q) k))
      = ∑ k : Fin K, a (ix2 p k) * b (ix2 q k) := by
  rw [← Equiv.sum_comp (contrEquiv1 (DotDims.transposedRhs M K N) K rfl rfl).symm]
  refine Finset.sum_congr rfl fun k _ => ?_
  rw [lhsIdx_eq, rhsIdx_eq]

/-- A matmul into the zero splat, read at (p, q). -/
theorem matmul_zero_apply {φ₁ φ₂ : FTy} (prec : Option ContractPrecision)
    (a : FVec Ideal ⟨2, ![M, K]⟩ φ₁) (b : FVec Ideal ⟨2, ![N, K]⟩ φ₂) (p : Fin M) (q : Fin N) :
    FloatOps.matmul (DotDims.transposedRhs M K N) prec a b (constant ⟨2, ![M, N]⟩ .f32 0x00000000#32) (ix2 p q)
      = ∑ k : Fin K, a (ix2 p k) * b (ix2 q k) :=
  (Ideal.matmul_constant_zero_apply (DotDims.transposedRhs M K N) prec a b (ix2 p q)).trans (contr_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![N, K]⟩ φ₂) (p : Fin M) (q : Fin N) :
    FloatOps.dotGeneral (DotDims.transposedRhs M K N) prec sched a b (ix2 p q) = ∑ k : Fin K, a (ix2 p k) * b (ix2 q k) :=
  (Ideal.dotGeneral_apply (DotDims.transposedRhs M K N) prec sched a b (ix2 p q)).trans (contr_sum M K N a b p q)

end Idealize.ShloMosaic.TransposedDot

end
-- ==== Proof.PayIdeal.lean ====
/-
  The body's arithmetic read at one entry, on the extended reals: with u and r the two [1024, 128] blocks and p the
  [1024, 1024] block of base scores, entry (a, b) of what the body stores is p (a, b) + ∑ k, u (a, k) · r (b, k).
  The two changes of float format are the identity there, and the product into the zero block is the plain sum.
-/
import proofs.«106344_j7430293422638_1_alg».proof.Proof.Gen.KernelIdeal.Skeleton
import proofs.«106344_j7430293422638_1_alg».proof.Proof.LibTransposedDot
import Idealize.ShloMosaic.Lib.Pipeline.Value

noncomputable section

namespace Cert.KernelIdeal.Pay

open Cert.KernelIdeal Cert.KernelIdeal.Gen
open Idealize.ShloMosaic Idealize.ShloMosaic.ValueIdx

/-- The printed product's dimension numbers are those of a product with the right operand transposed. -/
theorem dot_eq : dot_S1024x128_S1024x128_S1024x1024_1_1_0_0_n_n = DotDims.transposedRhs 1024 128 1024 := rfl

/-- Entry (a, b) of the stored block. -/
theorem pay_apply (x0 x1 : Vec Ideal S1024x128 .f32) (x2 : Vec Ideal S1024x1024 .f32) (a b : Fin 1024) :
    k0_pay1 (F := Ideal) x0 x1 x2 (ix2 a b) = x2 (ix2 a b) + ∑ k : Fin 128, x0 (ix2 a k) * x1 (ix2 b k) := by
  unfold k0_pay1
  simp only [shapeCast_self]
  show x2 (ix2 a b) + FloatOps.matmul dot_S1024x128_S1024x128_S1024x1024_1_1_0_0_n_n none
      (truncf (F := Ideal) .bf16 x0 bitsLt_bf16_f32) (truncf (F := Ideal) .bf16 x1 bitsLt_bf16_f32)
      (constant (F := Ideal) S1024x1024 .f32 0x00000000#32) (ix2 a b) = _
  rw [dot_eq]
  exact congrArg (x2 (ix2 a b) + ·) (TransposedDot.matmul_zero_apply 1024 128 1024 none _ _ a b)

end Cert.KernelIdeal.Pay

end
-- ==== Proof.DataIdeal.lean ====
/-
  The data of the pipeline's frame run for the idealized kernel, and the body's obligation at a generic grid point.

  After the body at point t the four staging buffers hold: u's block (the one block of its array); the point's
  1024 rows of r; the point's 1024 columns of the base scores; and base + u · rᵀ of those. At the last point only
  the leading 848 rows (columns) of the last three belong to the arrays; past them the buffers hold a filler. Entry
  (a, b) of the stored block depends on row b of r's buffer and entry (a, b) of the base buffer only, so the
  leading 848 columns of the stored block do not depend on the fillers: that is what lets the stored block be named.
-/
import proofs.«106344_j7430293422638_1_alg».proof.Proof.BodyIdeal
import proofs.«106344_j7430293422638_1_alg».proof.Proof.PayIdeal

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The extents of the parts the transfers move -/

/-- At every point: r's block keeps all 128 columns and as many rows as the result's block keeps columns; the base
    block and the result's block keep all 1024 rows and the same columns. -/
theorem extents : ∀ t : Fin cfg0.N,
    win0_1.xsize (grid0.coords t) 0 = win0_3.xsize (grid0.coords t) 1 ∧ win0_1.xsize (grid0.coords t) 1 = 128
      ∧ win0_2.xsize (grid0.coords t) 0 = 1024 ∧ win0_2.xsize (grid0.coords t) 1 = win0_3.xsize (grid0.coords t) 1
      ∧ win0_3.xsize (grid0.coords t) 0 = 1024 :=
  (by decide +kernel : ∀ t : Fin grid0.N,
    win0_1.xsize (grid0.coords t) 0 = win0_3.xsize (grid0.coords t) 1 ∧ win0_1.xsize (grid0.coords t) 1 = 128
      ∧ win0_2.xsize (grid0.coords t) 0 = 1024 ∧ win0_2.xsize (grid0.coords t) 1 = win0_3.xsize (grid0.coords t) 1
      ∧ win0_3.xsize (grid0.coords t) 0 = 1024)

/-- Two fills of one moved part agree on the moved part. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-! ## The proof data -/

/-- The point's rows of r as its staging buffer holds them after the body: the block inside the array, then the filler. -/
def rowsFill (c : Dev nD) (t : Fin cfg0.N) : S1024x128.Idx → Elt Ideal .f32 :=
  win0_1.fill (grid0.coords t) (fun _ => FloatOps.ofBits (F := Ideal) .f32 0#32) (iblk m c 1 t)
/-- The point's columns of the base scores likewise. -/
def baseFill (c : Dev nD) (t : Fin cfg0.N) : S1024x1024.Idx → Elt Ideal .f32 :=
  win0_2.fill (grid0.coords t) (fun _ => FloatOps.ofBits (F := Ideal) .f32 0#32) (iblk m c 2 t)

/-- The arrays as the region finds them; after the body the buffers as above and the result's at the body's
    arithmetic of them; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => rowsFill m c t
    | ⟨2, _⟩ => baseFill m c t
    | ⟨3, _⟩ => outBlock (iblk m c 0 t) (rowsFill m c t) (baseFill m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = rowsFill m c t := by dsimp only [dats]
theorem after2 (c : Dev nD) (t : Fin cfg0.N) : (dats m 0 c).after 2 t = baseFill m c t := by dsimp only [dats]
theorem after3 (c : Dev nD) (t : Fin cfg0.N) :
    (dats m 0 c).after 3 t = outBlock (iblk m c 0 t) (rowsFill m c t) (baseFill m c t) := by dsimp only [dats]

/-- u's buffer holds its one block at every point. -/
theorem before0 (c : Dev nD) (t : Fin cfg0.N) (d) : (dats m 0 c).before 0 t d = iblk m c 0 t :=
  before0_0_of m (dats m 0 c) (A_eq m c 0) (after0 m c) t d
/-- r's and the base scores' buffers are fetched at every point: the block inside the array, anything past it. -/
theorem before1 (c : Dev nD) (t : Fin cfg0.N) (d) :
    (dats m 0 c).before 1 t d = win0_1.fill (grid0.coords t) d (iblk m c 1 t) := by
  unfold Dat.before; rw [if_pos (fetch0_1 t)]; rfl
theorem before2 (c : Dev nD) (t : Fin cfg0.N) (d) :
    (dats m 0 c).before 2 t d = win0_2.fill (grid0.coords t) d (iblk m c 2 t) := by
  unfold Dat.before; rw [if_pos (fetch0_2 t)]; rfl

/-! ## The stored block's leading columns do not depend on the fillers -/

theorem out_apply_eq (t : Fin cfg0.N) (x0 : Vec Ideal S1024x128 .f32) (g1 : (win0_1.xblock (grid0.coords t)).Idx → EReal)
    (g2 : (win0_2.xblock (grid0.coords t)).Idx → EReal) (d1 d1' : S1024x128.Idx → EReal) (d2 d2' : S1024x1024.Idx → EReal)
    (a b : Fin 1024) (hb : b.val < win0_3.xsize (grid0.coords t) 1) :
    outBlock (F := Ideal) x0 (win0_1.fill (grid0.coords t) d1 g1) (win0_2.fill (grid0.coords t) d2 g2) (ix2 a b)
      = outBlock (F := Ideal) x0 (win0_1.fill (grid0.coords t) d1' g1) (win0_2.fill (grid0.coords t) d2' g2) (ix2 a b) := by
  obtain ⟨e10, e11, e20, e21, e30⟩ := extents t
  have h2 : win0_2.moved (grid0.coords t) (ix2 a b) = true := (win0_2.moved_iff (grid0.coords t) (ix2 a b)).mpr fun x => by
    match x with
    | ⟨0, _⟩ => show a.val < win0_2.xsize (grid0.coords t) 0; rw [e20]; exact a.isLt
    | ⟨1, _⟩ => show b.val < win0_2.xsize (grid0.coords t) 1; rw [e21]; exact hb
  have h1 : ∀ k : Fin 128, win0_1.moved (grid0.coords t) (ix2 b k) = true := fun k =>
    (win0_1.moved_iff (grid0.coords t) (ix2 b k)).mpr fun x => by
      match x with
      | ⟨0, _⟩ => show b.val < win0_1.xsize (grid0.coords t) 0; rw [e10]; exact hb
      | ⟨1, _⟩ => show k.val < win0_1.xsize (grid0.coords t) 1; rw [e11]; exact k.isLt
  rw [outBlock_eq, outBlock_eq, Pay.pay_apply, Pay.pay_apply,
    fill_eq_of_moved win0_2 (grid0.coords t) d2 d2' g2 (ix2 a b) h2]
  refine congrArg (win0_2.fill (grid0.coords t) d2' g2 (ix2 a b) + ·) (Finset.sum_congr rfl fun k _ => ?_)
  rw [fill_eq_of_moved win0_1 (grid0.coords t) d1 d1' g1 (ix2 b k) (h1 k)]

theorem cut_out_eq (t : Fin cfg0.N) (x0 : Vec Ideal S1024x128 .f32) (g1 : (win0_1.xblock (grid0.coords t)).Idx → EReal)
    (g2 : (win0_2.xblock (grid0.coords t)).Idx → EReal) (d1 d1' : S1024x128.Idx → EReal) (d2 d2' : S1024x1024.Idx → EReal) :
    win0_3.cut (grid0.coords t) (outBlock (F := Ideal) x0 (win0_1.fill (grid0.coords t) d1 g1) (win0_2.fill (grid0.coords t) d2 g2))
      = win0_3.cut (grid0.coords t) (outBlock (F := Ideal) x0 (win0_1.fill (grid0.coords t) d1' g1) (win0_2.fill (grid0.coords t) d2' g2)) := by
  funext j
  obtain ⟨a, b, hab⟩ : ∃ (a : Fin 1024) (b : Fin 1024), win0_3.xinj (grid0.coords t) j = ix2 a b := ⟨_, _, eq_ix2 _⟩
  have h1 : (j 1).val = b.val := congrArg (fun f : S1024x1024.Idx => (f 1).val) hab
  show outBlock (F := Ideal) x0 _ _ (win0_3.xinj (grid0.coords t) j) = outBlock (F := Ideal) x0 _ _ (win0_3.xinj (grid0.coords t) j)
  rw [hab]
  exact out_apply_eq t x0 g1 g2 d1 d1' d2 d2' a b (h1 ▸ (j 1).isLt)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the three clipped windows' buffers described on the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; unfold rowsFill; rw [Window.cut_fill]; iexact H1
  isplitl [H2]
  · iexists d2; unfold baseFill; rw [Window.cut_fill]; iexact H2
  · have e := win0_3.fill_congr_cut (grid0.coords t) (cut_out_eq t (iblk m c 0 t) (iblk m c 1 t) (iblk m c 2 t) d1
      (fun _ => FloatOps.ofBits (F := Ideal) .f32 0#32) d2 (fun _ => FloatOps.ofBits (F := Ideal) .f32 0#32))
    have hent : ∀ X Z : S1024x1024.Idx → Elt Ideal .f32, Z = X →
        ((owns (c : Thread nD τ) (st0_3 t) fullShare X : sProp 𝕄) ⊢ owns (c : Thread nD τ) (st0_3 t) fullShare Z) :=
      fun X Z h => h ▸ BI.Entails.refl _
    iexists (outBlock (F := Ideal) (iblk m c 0 t) (win0_1.fill (grid0.coords t) d1 (iblk m c 1 t)) (win0_2.fill (grid0.coords t) d2 (iblk m c 2 t)))
    unfold rowsFill baseFill
    iapply (hent _ _ e)
    iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

end Cert.KernelIdeal.Body

end
-- ==== Proof.Spec.lean ====
/-
  The function both programs compute, stated once over the memory the idealized kernel is launched from.
  With u = alpha · (mean region embedding of the user's last visits), an array [1024, 128] the host code writes
  before the kernel is launched, and r = the region embedding of every place, an array [50000, 128] written there
  too, the result at (b, l) is  base (b, l) + ∑ k, u (b, k) · r (l, k)  on the extended reals.
-/
import proofs.«106344_j7430293422638_1_alg».proof.Proof.Gen.KernelIdeal.Frame
import Idealize.ShloMosaic.Lib.ValueIdx

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The scaled user preference as the kernel region finds it: what the host operations left in the buffer of `%37`. -/
def scaledPref (c : Dev nD) : S1024x128.Idx → EReal := V (F := Ideal) m c main_v37
/-- Every place's region embedding as the kernel region finds it: the buffer of `%44`. -/
def placeRows (c : Dev nD) : S50000x128.Idx → EReal := V (F := Ideal) m c main_v44
/-- The base scores: the first argument array at launch. -/
def base (c : Dev nD) : S1024x50000.Idx → EReal := m ((c.tc : Thread nD τ).loc main_arg0)

/-- The common result: base score plus the inner product of the user's scaled preference with the place's row. -/
def G (c : Dev nD) : S1024x50000.Idx → EReal :=
  fun i => base m c i + ∑ k : Fin 128, scaledPref m c (ix2 (i 0) k) * placeRows m c (ix2 (i 1) k)

end Cert.Bridge

end
-- ==== Proof.ValueIdeal.lean ====
/-
  From the blocks to the array, for the idealized kernel: the run of the whole program and what the result array
  holds after it.

  Point t of the 49 writes back columns 1024·t … 1024·t + 1023 of the result (the last point: 848 columns), all
  1024 rows. Entry (a, b) of what it writes is  base (a, 1024·t + b) + ∑ k, u (a, k) · r (1024·t + b, k):  the block of
  ONE function of the arrays. The 49 column ranges cover the 50000 columns, so the result array ends holding that
  function everywhere.
-/
import proofs.«106344_j7430293422638_1_alg».proof.Proof.DataIdeal
import proofs.«106344_j7430293422638_1_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The run and the frame -/

set_option backward.isDefEq.respectTransparency.types false in
/-- Every weakly fair execution of @main terminates, every array of the pipeline at what the library computes from
    the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-! ## The index maps and the cut, decided over the grid -/

/-- u's block is always block (0, 0); r's block at point t is row block t; the base's and the result's are column block t. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val)

/-- The result's block keeps 1024 columns, the last point's 848. -/
theorem cols_kept : ∀ t : Fin cfg0.N, win0_3.xsize (grid0.coords t) 1 = if t.val = 48 then 848 else 1024 :=
  (by decide +kernel : ∀ t : Fin grid0.N, win0_3.xsize (grid0.coords t) 1 = if t.val = 48 then 848 else 1024)

theorem fill_of_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

/-! ## The three staged blocks at an entry, as entries of the arrays -/

/-- Entry (a, k) of u's buffer is entry (a, k) of u. -/
theorem pref_at (c : Dev nD) (t : Fin cfg0.N) (a : Fin 1024) (k : Fin 128) :
    iblk m c 0 t (ix2 a k) = Bridge.scaledPref m c (ix2 a k) := by
  obtain ⟨e00, e01, -⟩ := idx_facts t
  show V m c main_v37 (((cfg0.win 0).blk t).view.emb (ix2 a k)) = V m c main_v37 (ix2 a k)
  refine congrArg (V m c main_v37) (funext fun x => Fin.ext ?_)
  match x with
  | ⟨0, _⟩ => show win0_0.index t (0 : Fin 2) * 1024 + 1 * a.val = a.val; rw [e00]; omega
  | ⟨1, _⟩ => show win0_0.index t (1 : Fin 2) * 128 + 1 * k.val = k.val; rw [e01]; omega

/-- Entry (b, k) of r's buffer, b among the rows the fetch filled, is entry (1024·t + b, k) of r. -/
theorem rows_at (c : Dev nD) (t : Fin cfg0.N) (b : Fin 1024) (k : Fin 128) (q : Fin 50000)
    (hb : b.val < win0_3.xsize (grid0.coords t) 1) (hq : q.val = t.val * 1024 + b.val) :
    rowsFill m c t (ix2 b k) = Bridge.placeRows m c (ix2 q k) := by
  obtain ⟨e10, e11, -⟩ := extents t
  obtain ⟨-, -, i10, i11, -⟩ := idx_facts t
  have h1 : win0_1.moved (grid0.coords t) (ix2 b k) = true := (win0_1.moved_iff (grid0.coords t) (ix2 b k)).mpr fun x => by
    match x with
    | ⟨0, _⟩ => show b.val < win0_1.xsize (grid0.coords t) 0; rw [e10]; exact hb
    | ⟨1, _⟩ => show k.val < win0_1.xsize (grid0.coords t) 1; rw [e11]; exact k.isLt
  unfold rowsFill
  rw [fill_of_moved win0_1 (grid0.coords t) _ (iblk m c 1 t) (ix2 b k) h1]
  show V m c main_v44 (((cfg0.win 1).blk t).view.emb _) = V m c main_v44 (ix2 q k)
  refine congrArg (V m c main_v44) (funext fun x => Fin.ext ?_)
  match x with
  | ⟨0, _⟩ => show win0_1.index t (0 : Fin 2) * 1024 + 1 * b.val = q.val; rw [i10]; omega
  | ⟨1, _⟩ => show win0_1.index t (1 : Fin 2) * 128 + 1 * k.val = k.val; rw [i11]; omega

/-- Entry (a, b) of the base scores' buffer, b among the columns the fetch filled, is entry (a, 1024·t + b) of the base. -/
theorem base_at (c : Dev nD) (t : Fin cfg0.N) (a b : Fin 1024) (q : Fin 50000)
    (hb : b.val < win0_3.xsize (grid0.coords t) 1) (hq : q.val = t.val * 1024 + b.val) :
    baseFill m c t (ix2 a b) = Bridge.base m c (ix2 a q) := by
  obtain ⟨-, -, e20, e21, -⟩ := extents t
  obtain ⟨-, -, -, -, i20, i21, -⟩ := idx_facts t
  have h2 : win0_2.moved (grid0.coords t) (ix2 a b) = true := (win0_2.moved_iff (grid0.coords t) (ix2 a b)).mpr fun x => by
    match x with
    | ⟨0, _⟩ => show a.val < win0_2.xsize (grid0.coords t) 0; rw [e20]; exact a.isLt
    | ⟨1, _⟩ => show b.val < win0_2.xsize (grid0.coords t) 1; rw [e21]; exact hb
  unfold baseFill
  rw [fill_of_moved win0_2 (grid0.coords t) _ (iblk m c 2 t) (ix2 a b) h2]
  show V m c main_arg0 (((cfg0.win 2).blk t).view.emb _) = m ((c.tc : Thread nD τ).loc main_arg0) (ix2 a q)
  rw [V_main_arg0]
  refine congrArg (m ((c.tc : Thread nD τ).loc main_arg0)) (funext fun x => Fin.ext ?_)
  match x with
  | ⟨0, _⟩ => show win0_2.index t (0 : Fin 2) * 1024 + 1 * a.val = a.val; rw [i20]; omega
  | ⟨1, _⟩ => show win0_2.index t (1 : Fin 2) * 1024 + 1 * b.val = q.val; rw [i21]; omega

/-! ## What a point writes back, and the cover -/

/-- What point t writes back is block t of the common function. -/
theorem flushed_eq (c : Dev nD) (t : Fin cfg0.N) :
    (dats m 0 c).flushed 3 t = ((cfg0.win 3).blk t).view.read (Elt Ideal) (Bridge.G m c) := by
  show (cfg0.win 3).cut (grid0.coords t) ((dats m 0 c).after 3 t) = _
  rw [after3]
  obtain ⟨-, -, -, -, -, -, i30, i31⟩ := idx_facts t
  funext j
  obtain ⟨a, b, hab⟩ : ∃ (a : Fin 1024) (b : Fin 1024), win0_3.xinj (grid0.coords t) j = ix2 a b := ⟨_, _, eq_ix2 _⟩
  have ha : (j 0).val = a.val := congrArg (fun f : S1024x1024.Idx => (f 0).val) hab
  have hb : (j 1).val = b.val := congrArg (fun f : S1024x1024.Idx => (f 1).val) hab
  have hbl : b.val < win0_3.xsize (grid0.coords t) 1 := hb ▸ (j 1).isLt
  obtain ⟨a', q, hi⟩ : ∃ (a' : Fin 1024) (q : Fin 50000), ((cfg0.win 3).blk t).view.emb j = ix2 a' q := ⟨_, _, eq_ix2 _⟩
  have ha' : a'.val = a.val := by
    have h := congrArg (fun f : S1024x50000.Idx => (f 0).val) hi
    have h' : (((cfg0.win 3).blk t).view.emb j 0).val = win0_3.index t (0 : Fin 2) * 1024 + 1 * (j 0).val := rfl
    change (((cfg0.win 3).blk t).view.emb j 0).val = a'.val at h
    omega
  have hq : q.val = t.val * 1024 + b.val := by
    have h := congrArg (fun f : S1024x50000.Idx => (f 1).val) hi
    have h' : (((cfg0.win 3).blk t).view.emb j 1).val = win0_3.index t (1 : Fin 2) * 1024 + 1 * (j 1).val := rfl
    change (((cfg0.win 3).blk t).view.emb j 1).val = q.val at h
    omega
  have haa : a' = a := Fin.ext ha'
  subst haa
  show outBlock (F := Ideal) (iblk m c 0 t) (rowsFill m c t) (baseFill m c t) (win0_3.xinj (grid0.coords t) j)
    = Bridge.G m c (((cfg0.win 3).blk t).view.emb j)
  rw [hab, hi, outBlock_eq, Pay.pay_apply, base_at m c t a' b q hbl hq]
  unfold Bridge.G
  refine congrArg (Bridge.base m c (ix2 a' q) + ·) (Finset.sum_congr rfl fun k _ => ?_)
  rw [pref_at m c t a' k, rows_at m c t b k q hbl hq]

/-- Every entry of the result array is in some point's block: column l in point l / 1024's. -/
theorem covered (i : S1024x50000.Idx) :
    ∃ t : Fin cfg0.N, (cfg0.win 3).flush t = true ∧ i ∈ ((cfg0.win 3).blk t).view.set := by
  have h0 : (i 0).val < 1024 := (i 0).isLt
  have h1 : (i 1).val < 50000 := (i 1).isLt
  have hN : (i 1).val / 1024 < cfg0.N := by show _ < grid0.N; rw [N_0]; omega
  refine ⟨⟨(i 1).val / 1024, hN⟩, flush0_3 _, ?_⟩
  obtain ⟨-, -, -, -, -, -, i30, i31⟩ := idx_facts ⟨(i 1).val / 1024, hN⟩
  obtain ⟨-, -, -, -, e30⟩ := extents ⟨(i 1).val / 1024, hN⟩
  have e31 := cols_kept ⟨(i 1).val / 1024, hN⟩
  show i ∈ ((View.whole main_v45).slice (win0_3.rect ⟨(i 1).val / 1024, hN⟩)).set
  rw [View.set_slice_whole, Rect.mem_set_unit]
  intro x
  match x with
  | ⟨0, _⟩ =>
    show win0_3.index ⟨(i 1).val / 1024, hN⟩ (0 : Fin 2) * 1024 ≤ (i 0).val
      ∧ (i 0).val < win0_3.index ⟨(i 1).val / 1024, hN⟩ (0 : Fin 2) * 1024 + win0_3.xsize (grid0.coords ⟨(i 1).val / 1024, hN⟩) 0
    rw [i30, e30]; omega
  | ⟨1, _⟩ =>
    show win0_3.index ⟨(i 1).val / 1024, hN⟩ (1 : Fin 2) * 1024 ≤ (i 1).val
      ∧ (i 1).val < win0_3.index ⟨(i 1).val / 1024, hN⟩ (1 : Fin 2) * 1024 + win0_3.xsize (grid0.coords ⟨(i 1).val / 1024, hN⟩) 1
    rw [i31, e31]
    show (i 1).val / 1024 * 1024 ≤ (i 1).val ∧ (i 1).val < (i 1).val / 1024 * 1024 + if (i 1).val / 1024 = 48 then 848 else 1024
    split <;> omega

/-- The result array after the run is the common function. -/
theorem final (c : Dev nD) : (dats m 0 c).arrAt 3 cfg0.N = Bridge.G m c :=
  (dats m 0 c).arrAt_eq_of_cover 3 (Bridge.G m c) (fun t _ => flushed_eq m c t) covered

/-- The run of the idealized kernel, read: the result array ends at the common function, the arguments unchanged. -/
theorem run : θ_run defs (onTc (τ := τ) (main (F := Ideal))) ⟨m, fun _ => 0, ρ⟩ (fun r => ∀ c : Dev nD,
      r.2.mem ((c.tc : Thread nD τ).loc main_v45) = Bridge.G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).1 3).trans (final m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.KernelIdeal.Body

end
-- ==== Proof.RealEntries.lean ====
/-
  Extended reals that are real numbers, and the one law the two programs differ by.
  The idealized programs compute on the extended reals, where a factor may be moved inside a sum only when no
  infinity is met: for a real `α` and real `u k`, `r k`,  α · ∑ k, u k · r k = ∑ k, (α · u k) · r k.
  `IsReal x` says that `x` is neither +∞ nor −∞; it is kept by sums, products, maxima, finite sums, and by a
  quotient whose divisor is not zero. An array entry whose absolute value is below +∞ is real.
-/
import Idealize.ShloMosaic.PureOps.Ideal
import Idealize.ShloMosaic.PureOps.Ideal.Laws

noncomputable section

namespace Cert.Bridge

open Idealize.ShloMosaic

/-- The extended real `x` is a real number. -/
def IsReal (x : EReal) : Prop := ∃ r : ℝ, x = (r : EReal)

namespace IsReal

variable {x y : EReal}

theorem coe (r : ℝ) : IsReal (r : EReal) := ⟨r, rfl⟩
theorem zero : IsReal 0 := ⟨0, rfl⟩
theorem one : IsReal 1 := ⟨1, rfl⟩

theorem add (hx : IsReal x) (hy : IsReal y) : IsReal (x + y) := by
  obtain ⟨a, rfl⟩ := hx; obtain ⟨b, rfl⟩ := hy; exact ⟨a + b, (EReal.coe_add a b).symm⟩

theorem mul (hx : IsReal x) (hy : IsReal y) : IsReal (x * y) := by
  obtain ⟨a, rfl⟩ := hx; obtain ⟨b, rfl⟩ := hy; exact ⟨a * b, (EReal.coe_mul a b).symm⟩

theorem max (hx : IsReal x) (hy : IsReal y) : IsReal (max x y) := by
  rcases max_choice x y with h | h <;> rw [h] <;> assumption

theorem sum {ι : Type} (s : Finset ι) (f : ι → EReal) (h : ∀ i ∈ s, IsReal (f i)) : IsReal (∑ i ∈ s, f i) :=
  Finset.sum_induction f IsReal (fun _ _ => add) zero h

/-- A quotient of reals by a divisor that is not zero is real. -/
theorem div (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact mul (coe a) (coe _)

/-- An extended real whose absolute value max x (−x) is below +∞ is real. -/
theorem of_abs_lt_top (h : Max.max x (-x) < ⊤) : IsReal x := by
  induction x using EReal.rec with
  | bot => exact absurd h (by simp)
  | coe r => exact coe r
  | top => exact absurd h (by simp)

end IsReal

/-- The cast of a finite sum of reals is the sum of the casts. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law: a real factor moves inside a finite sum of products of reals. -/
theorem scale_sum {ι : Type} [Fintype ι] (α : EReal) (u r : ι → EReal) (hα : IsReal α) (hu : ∀ k, IsReal (u k))
    (hr : ∀ k, IsReal (r k)) : α * ∑ k, u k * r k = ∑ k, (α * u k) * r k := by
  obtain ⟨a, rfl⟩ := hα
  choose u' hu' using hu
  choose r' hr' using hr
  obtain rfl : u = fun k => (u' k : EReal) := funext hu'
  obtain rfl : r = fun k => (r' k : EReal) := funext hr'
  simp only [← EReal.coe_mul, ← coe_finset_sum, Finset.mul_sum, mul_assoc]

/-- The pattern of +∞ at `f32` denotes +∞. -/
theorem ofBits_inf : Ideal.ofBits .f32 0x7F800000#32 = ⊤ := by simp [Ideal.ofBits, Ideal.ieee]

/-- The pattern of 1.0 at `f32` denotes 1. -/
theorem ofBits_one : Ideal.ofBits .f32 0x3F800000#32 = 1 := by
  simp [Ideal.ofBits, Ideal.ieee]
  norm_cast
  norm_num

end Cert.Bridge

end
-- ==== Proof.RefValue.lean ====
/-
  The reference program's result at an index, and that its two factors have real entries.
  With up = the user's mean region embedding over the last visits (an array [1024, 128]) and r = every place's region
  embedding ([50000, 128]), the reference's result at (b, l) is  base (b, l) + α · ∑ k, up (b, k) · r (l, k).
  Every entry of r is an entry of the embedding table, so it is real when the table is. Every entry of up is a sum of ten
  products (table entry) · (0 or 1) divided by a maximum of a real count and 1, which is real and at least 1: real too.
  So the real factor α moves inside the sum, and the result is  base (b, l) + ∑ k, (α · up (b, k)) · r (l, k).
-/
import proofs.«106344_j7430293422638_1_alg».proof.Proof.RefReadPatched
import proofs.«106344_j7430293422638_1_alg».proof.Proof.RealEntries
import Idealize.ShloMosaic.Lib.ValueIdx

noncomputable section

namespace Cert.Bridge

open Idealize.ShloMosaic Idealize.ShloMosaic.ValueIdx
open Cert.ReferenceIdeal Cert.ReferenceIdeal.Gen Cert.ReferenceIdeal.ReadP

variable (x0 : (⟨S1024x50000, .f32⟩ : BufTy).Contents (Elt Ideal)) (x1 : (⟨S1024x200, .i32⟩ : BufTy).Contents (Elt Ideal))
  (x2 : (⟨S1024, .i32⟩ : BufTy).Contents (Elt Ideal)) (x3 : (⟨S50000, .i32⟩ : BufTy).Contents (Elt Ideal))
  (x4 : (⟨S2000x128, .f32⟩ : BufTy).Contents (Elt Ideal)) (x5 : (⟨S_, .f32⟩ : BufTy).Contents (Elt Ideal))

/-- The visit mask, an `i1` read as a float, is 0 or 1: real. -/
theorem mask_real (i : S1024x10x1.Idx) : IsReal (val_main_v27 (F := Ideal) x2 i) := by
  rw [val_main_v27_apply, val_main_v26_apply]
  exact ⟨_, rfl⟩

/-- The number of valid visits of a user, a sum of ten masks from zero, is real. -/
theorem count_real (i : S1024x1.Idx) : IsReal (val_main_v28 (F := Ideal) x2 i) := by
  rw [val_main_v28_apply]
  refine IsReal.add ?_ (IsReal.sum _ _ fun k _ => mask_real x2 _)
  rw [val_main_cst_apply, Ideal.ofBits_def, Ideal.ofBits_zero_f32]
  exact IsReal.zero

/-- The divisor, the maximum of the count and 1, is real and not zero. -/
theorem denom_real (i : S1024x128.Idx) :
    IsReal (val_main_v34 (F := Ideal) x2 i) ∧ val_main_v34 (F := Ideal) x2 i ≠ 0 := by
  rw [val_main_v34_apply, val_main_v30_apply, val_main_v29_apply, val_main_cst_7_apply, Ideal.maximumf_def, Ideal.ofBits_def,
    ofBits_one]
  refine ⟨IsReal.max (count_real x2 _) IsReal.one, ?_⟩
  have h01 : (0 : EReal) < 1 := by exact_mod_cast (zero_lt_one' ℝ)
  exact (lt_of_lt_of_le h01 (le_max_right _ _)).ne'

/-- The masked sum of the ten visited regions' embeddings is real when the table's entries are. -/
theorem numer_real (h4 : ∀ j, IsReal (x4 j)) (i : S1024x128.Idx) : IsReal (val_main_v33 (F := Ideal) x1 x2 x3 x4 i) := by
  rw [val_main_v33_apply]
  refine IsReal.add ?_ (IsReal.sum _ _ fun k _ => ?_)
  · rw [val_main_cst_8_apply, Ideal.ofBits_def, Ideal.ofBits_zero_f32]
    exact IsReal.zero
  · rw [val_main_v32_apply, Ideal.mulf_def, val_main_v31_apply]
    exact IsReal.mul (h4 _) (mask_real x2 _)

/-- Every entry of the user's mean region embedding is real when the table's entries are. -/
theorem userPref_real (h4 : ∀ j, IsReal (x4 j)) (i : S1024x128.Idx) : IsReal (val_main_v35 (F := Ideal) x1 x2 x3 x4 i) := by
  rw [val_main_v35_apply, Ideal.hostDivf_def]
  exact IsReal.div (numer_real x1 x2 x3 x4 h4 i) (denom_real x2 i).1 (denom_real x2 i).2

/-- Every entry of a place's region embedding is an entry of the table. -/
theorem placeRow_real (h4 : ∀ j, IsReal (x4 j)) (i : S50000x128.Idx) : IsReal (val_main_v42 (F := Ideal) x3 x4 i) := h4 _

/-- The reference's result at an index: the base score plus α times the inner product. -/
theorem ref_at (i : S1024x50000.Idx) :
    val_main_v46 (F := Ideal) x0 x1 x2 x3 x4 x5 i
      = x0 i + x5 (fun a => a.elim0) * ∑ k : Fin 128,
          val_main_v35 (F := Ideal) x1 x2 x3 x4 (ix2 (i 0) k) * val_main_v42 (F := Ideal) x3 x4 (ix2 (i 1) k) := by
  have el : ∀ k : Fin 128, lidx_main_v43 i k = ix2 (i 0) k := fun k =>
    funext fun a => Fin.ext (by match a with | ⟨0, _⟩ => rfl | ⟨1, _⟩ => rfl)
  have er : ∀ k : Fin 128, ridx_main_v43 i k = ix2 (i 1) k := fun k =>
    funext fun a => Fin.ext (by match a with | ⟨0, _⟩ => rfl | ⟨1, _⟩ => rfl)
  rw [val_main_v46_apply, val_main_v45_apply, val_main_v44_apply, val_main_v43_apply, Ideal.addf_def, Ideal.mulf_def]
  simp only [el, er]
  rfl

/-- With real table entries and a real α the factor moves inside the sum. -/
theorem ref_law (h4 : ∀ j, IsReal (x4 j)) (h5 : IsReal (x5 (fun a => a.elim0))) (i : S1024x50000.Idx) :
    val_main_v46 (F := Ideal) x0 x1 x2 x3 x4 x5 i
      = x0 i + ∑ k : Fin 128,
          (x5 (fun a => a.elim0) * val_main_v35 (F := Ideal) x1 x2 x3 x4 (ix2 (i 0) k)) * val_main_v42 (F := Ideal) x3 x4 (ix2 (i 1) k) := by
  rw [ref_at, scale_sum _ _ _ h5 (fun k => userPref_real x1 x2 x3 x4 h4 _) (fun k => placeRow_real x3 x4 h4 _)]

end Cert.Bridge

end
-- ==== Proof.KernelHost.lean ====
/-
  What the host operations before the kernel's region leave in its two computed operands.
  The kernel program's host part computes the user's mean region embedding and every place's region embedding by the same
  operations, in the same order, as the reference program; so the scaled preference the region finds is α times the
  reference's stage for the mean embedding, and the place rows it finds are the reference's stage for the rows, both
  taken of the kernel program's own argument arrays.
-/
import proofs.«106344_j7430293422638_1_alg».proof.Proof.Spec
import proofs.«106344_j7430293422638_1_alg».proof.Proof.RefReadPatched

noncomputable section

namespace Cert.Bridge

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

set_option maxRecDepth 1000000 in
set_option maxHeartbeats 4000000 in
/-- The place rows the region finds are the reference's stage for them, of the kernel program's arguments. -/
theorem placeRows_eq (c : Dev nD) :
    placeRows m c = Cert.ReferenceIdeal.ReadP.val_main_v42 (F := Ideal)
      (m ((c.tc : Thread nD τ).loc main_arg3)) (m ((c.tc : Thread nD τ).loc main_arg4)) := by
  unfold placeRows
  dsimp only [Gen.V]
  simp only [Gen.hostOps0, Gen.hostOps0_1, Gen.hostOps0_2, Gen.hostOps0_3, List.flatten_cons, List.flatten_nil, List.append_nil,
    List.cons_append, List.nil_append]
  after_results_simp <;> (try simp only [TRef.toBuf, TRef.ofBuf, cast_eq]) <;> rfl

set_option maxRecDepth 1000000 in
set_option maxHeartbeats 4000000 in
/-- The scaled preference the region finds is α, spread over the array, times the reference's stage for the mean embedding. -/
theorem scaledPref_eq (c : Dev nD) :
    scaledPref m c = mulf (F := Ideal) (s := S1024x128) (φ := .f32) (broadcastInDim S1024x128 ![] Cert.KernelIdeal.Gen.bcast_S_S1024x128 (m ((c.tc : Thread nD τ).loc main_arg5)))
      (Cert.ReferenceIdeal.ReadP.val_main_v35 (F := Ideal) (m ((c.tc : Thread nD τ).loc main_arg1))
        (m ((c.tc : Thread nD τ).loc main_arg2)) (m ((c.tc : Thread nD τ).loc main_arg3)) (m ((c.tc : Thread nD τ).loc main_arg4))) := by
  unfold scaledPref
  dsimp only [Gen.V]
  simp only [Gen.hostOps0, Gen.hostOps0_1, Gen.hostOps0_2, Gen.hostOps0_3, List.flatten_cons, List.flatten_nil, List.append_nil,
    List.cons_append, List.nil_append]
  after_results_simp <;> (try simp only [TRef.toBuf, TRef.ofBuf, cast_eq]) <;> rfl

/-- At an index: α times the mean embedding's entry (the product of the extended reals). -/
theorem scaledPref_apply (c : Dev nD) (j : S1024x128.Idx) :
    scaledPref m c j = FloatOps.mulf (F := Ideal) (φ := .f32) (m ((c.tc : Thread nD τ).loc main_arg5) (fun a => a.elim0))
      (Cert.ReferenceIdeal.ReadP.val_main_v35 (F := Ideal) (m ((c.tc : Thread nD τ).loc main_arg1))
          (m ((c.tc : Thread nD τ).loc main_arg2)) (m ((c.tc : Thread nD τ).loc main_arg3)) (m ((c.tc : Thread nD τ).loc main_arg4)) j) := by
  rw [scaledPref_eq]
  show FloatOps.mulf (F := Ideal) (φ := .f32) (broadcastInDim S1024x128 ![] Cert.KernelIdeal.Gen.bcast_S_S1024x128 (m ((c.tc : Thread nD τ).loc main_arg5)) j) _ = _
  rw [broadcastInDim_apply _ Cert.KernelIdeal.Gen.bcast_S_S1024x128 _ j (fun a => a.elim0) (fun a => a.elim0)]
  rfl

end Cert.Bridge

end
-- ==== Proof.PreFinite.lean ====
/-
  What the precondition says: the base scores, the embedding table and α are finite.
  The precondition is the conjunction of three tests, each "every entry's absolute value is below +∞"; an extended
  real whose absolute value is below +∞ is a real number.
-/
import proofs.«106344_j7430293422638_1_alg».proof.Pre_finite_inputs
import proofs.«106344_j7430293422638_1_alg».proof.Proof.Gen.Pre_finite_inputs
import proofs.«106344_j7430293422638_1_alg».proof.Proof.RealEntries
import Idealize.ShloMosaic.Lib.ReduceAll
import Idealize.ShloMosaic.Lib.ValueIdx

noncomputable section

namespace Cert.Bridge

open Idealize.ShloMosaic Cert.Pre_finite_inputs

instance : Subsingleton S_.Idx := ⟨fun a b => funext fun d => d.elim0⟩

/-- An entry that compares below the pattern of +∞ in absolute value is real. -/
theorem real_of_lt_inf (x : EReal) (h : Ideal.cmp .olt (max x (-x)) (Ideal.ofBits .f32 0x7F800000#32) = 1#1) : IsReal x := by
  rw [ofBits_inf] at h
  have h' : BitVec.ofBool (decide (max x (-x) < ⊤)) = 1#1 := h
  by_cases hlt : max x (-x) < ⊤
  · exact IsReal.of_abs_lt_top hlt
  · rw [decide_eq_false hlt] at h'
    exact absurd h' (by decide)

/-- Under the precondition every base score, every entry of the embedding table, and α are real. -/
theorem finite_of_pre (a0 : FVec Ideal S1024x50000 .f32) (a1 : IVec S1024x200 32) (a2 : IVec S1024 32) (a3 : IVec S50000 32)
    (a4 : FVec Ideal S2000x128 .f32) (a5 : FVec Ideal S_ .f32)
    (h : fn (F := Ideal) a0 a1 a2 a3 a4 a5 = fun _ => 1#1) :
    (∀ i, IsReal (a0 i)) ∧ (∀ i, IsReal (a4 i)) ∧ (∀ i, IsReal (a5 i)) := by
  have h1 := congrFun h ValueIdx.ix0
  dsimp only [fn] at h1
  obtain ⟨h04, hr5⟩ := IntOp.andi_eq_one.1 h1
  obtain ⟨hr0, hr4⟩ := IntOp.andi_eq_one.1 h04
  refine ⟨fun i => real_of_lt_inf _ (Host.reduce_andi_all _ _ _ _ _ hr0 i),
    fun i => real_of_lt_inf _ (Host.reduce_andi_all _ _ _ _ _ hr4 i),
    fun i => real_of_lt_inf _ (Host.reduce_andi_all _ _ _ _ _ hr5 i)⟩

end Cert.Bridge

end
-- ==== Proof.RefSide.lean ====
/-
  The reference program's side of the certificate.
  Its frame: the reference runs and leaves its arguments as they were. Its value: from a memory that agrees with the
  kernel program's on the six arguments, and under the precondition (finite base scores, embedding table and α), the
  reference ends with the common result `G` — at (b, l) the base score plus ∑ k, (α · up (b, k)) · r (l, k), where up and r
  are the arrays the kernel program's host part hands to its region.
  The reference computes α · ∑ k, up (b, k) · r (l, k) instead; the two agree because α and every entry of up and r are real.
-/
import proofs.«106344_j7430293422638_1_alg».proof.Defs
import proofs.«106344_j7430293422638_1_alg».proof.Proof.Gen.KernelIdeal
import proofs.«106344_j7430293422638_1_alg».proof.Proof.Gen.ReferenceIdeal
import proofs.«106344_j7430293422638_1_alg».proof.Proof.Gen.Pre_finite_inputs
import proofs.«106344_j7430293422638_1_alg».proof.Proof.Spec
import proofs.«106344_j7430293422638_1_alg».proof.Proof.RefReadPatched
import proofs.«106344_j7430293422638_1_alg».proof.Proof.RefValue
import proofs.«106344_j7430293422638_1_alg».proof.Proof.KernelHost
import proofs.«106344_j7430293422638_1_alg».proof.Proof.PreFinite

noncomputable section

namespace Cert.Bridge

open Idealize.ShloMosaic Idealize.ShloMosaic.TcCoe Idealize.SL.Sem Idealize.ShloMosaic.ValueIdx

/-- The reference runs and its arguments end unchanged: its run read back, with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- The reference's last stage, of the kernel program's argument arrays, is the common result. -/
theorem ref_value (m : (ℓ : Loc Cert.KernelIdeal.nD Cert.KernelIdeal.τ Cert.KernelIdeal.sig) → Buf (Elt Ideal) ℓ) (hpre : Cert.Pre_KernelIdeal m) (c : Dev Cert.KernelIdeal.nD) :
    Cert.ReferenceIdeal.ReadP.val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = G m c := by
  obtain ⟨-, h4, h5⟩ := finite_of_pre _ _ _ _ _ _ (hpre c)
  funext i
  rw [ref_law _ _ _ _ _ _ h4 (h5 _) i]
  unfold G base
  simp only [scaledPref_apply, placeRows_eq]
  rfl

/-- From a memory agreeing with the kernel program's on the arguments, the reference ends with `G` and unchanged arguments. -/
theorem ref_run (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = G m c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) := by
  refine (θ_run Cert.ReferenceIdeal.defs _ _).mono (fun _ h c => ⟨(h c).1.trans ?_, (h c).2⟩) (Cert.ReferenceIdeal.ValueP.run (F := Ideal) m' g')
  obtain ⟨h0, h1, h2, h3, h4, h5⟩ := hagree c
  rw [Cert.ReferenceIdeal.ReadP.val_main_v46_eq, h0, h1, h2, h3, h4, h5]
  exact ref_value m hpre c

end Cert.Bridge

end
-- ==== Proof.lean ====
/-
  The certificate's five claims.

  The kernel adds, to a [1024, 50000] array of base scores, the inner products of 1024 scaled user preferences
  u = alpha · p with the region embeddings r of 50000 places, 1024 places at a time; the reference computes
  base + alpha · (p · rᵀ). On the extended reals both are  base (b, l) + ∑ k, u (b, k) · r (l, k)  once alpha, p and r are
  known to be real, which the finiteness of the inputs gives: p is a mean of finitely many rows of the finite table,
  r a selection of its rows. The three frames: the kernel as printed and idealized, by the pipeline's frame run over
  the body's triple; the reference, a sequence of host operations. The idealization rewrote nothing.
-/
import proofs.«106344_j7430293422638_1_alg».proof.Defs
import proofs.«106344_j7430293422638_1_alg».proof.Proof.DataBits
import proofs.«106344_j7430293422638_1_alg».proof.Proof.ValueIdeal
import proofs.«106344_j7430293422638_1_alg».proof.Proof.RefSide
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Body.frame (F := Bits) m ρ,
    fun m ρ _ => Cert.KernelIdeal.Body.frame m ρ,
    Cert.Bridge.frame_ref,
    trivial,
    fun m ρ m' ρ' hpre hagree =>
      ⟨fun c => Cert.Bridge.G m c, Cert.KernelIdeal.Body.run m ρ, Cert.Bridge.ref_run m ρ m' ρ' hpre hagree⟩⟩

end Cert.Proof

end
